-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x1 : Shape := ⟨2, ![320000, 1]⟩
abbrev S256x512 : Shape := ⟨2, ![256, 512]⟩
abbrev S256 : Shape := ⟨1, ![256]⟩
abbrev S320000 : Shape := ⟨1, ![320000]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x1 : S_.BroadcastsInDim S320000x1 (![] : Fin 0 → Fin S320000x1.rank)
  reducesTo_S320000x1_S_d0_1 : S320000x1.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S320000x1 .f32) (main_arg2 : FVec F S256x512 .f32) (main_arg3 : FVec F S256 .f32) (main_arg4 : IVec S320000 32) (main_arg5 : IVec S320000 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x1 .f32 := Host.absf main_arg1
  let main_cst_0 : FVec F S_ .f32 := constant S_ .f32 0x7F800000#32
  let main_v5 : FVec F S320000x1 .f32 := broadcastInDim S320000x1 ![] bcast_S_S320000x1 main_cst_0
  let main_v6 : IVec S320000x1 1 := cmpf .olt main_v4 main_v5
  let main_c_1 : IVec S_ 1 := constantI S_ 1 1#1
  let main_v7 : IVec S_ 1 := (fun x v => Host.reduce IntOp.andi x v reducesTo_S320000x1_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S320000x1 : Shape := ⟨2, ![320000, 1]⟩
abbrev S256x512 : Shape := ⟨2, ![256, 512]⟩
abbrev S256 : Shape := ⟨1, ![256]⟩
abbrev S320000 : Shape := ⟨1, ![320000]⟩
abbrev S_ : Shape := ⟨0, ![]⟩
abbrev S320000x256 : Shape := ⟨2, ![320000, 256]⟩
abbrev S10000 : Shape := ⟨1, ![10000]⟩
abbrev S10000x1 : Shape := ⟨2, ![10000, 1]⟩
abbrev S512x256 : Shape := ⟨2, ![512, 256]⟩
abbrev S256x256 : Shape := ⟨2, ![256, 256]⟩
abbrev S1x256 : Shape := ⟨2, ![1, 256]⟩
abbrev S1000x256 : Shape := ⟨2, ![1000, 256]⟩
abbrev S1000x1 : Shape := ⟨2, ![1000, 1]⟩

abbrev nBuf : Space → Nat
  | .hbm => 39
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S320000x1, .f32⟩
  | .hbm, ⟨2, _⟩ => ⟨S256x512, .f32⟩
  | .hbm, ⟨3, _⟩ => ⟨S256, .f32⟩
  | .hbm, ⟨4, _⟩ => ⟨S320000, .i32⟩
  | .hbm, ⟨5, _⟩ => ⟨S320000, .i32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x256, .f32⟩
  | .hbm, ⟨15, _⟩ => ⟨S320000x256, .f32⟩
  | .hbm, ⟨16, _⟩ => ⟨S320000x256, .f32⟩
  | .hbm, ⟨17, _⟩ => ⟨S_, .f32⟩
  | .hbm, ⟨18, _⟩ => ⟨S10000x256, .f32⟩
  | .hbm, ⟨19, _⟩ => ⟨S320000x1, .i32⟩
  | .hbm, ⟨20, _⟩ => ⟨S10000x256, .f32⟩
  | .hbm, ⟨21, _⟩ => ⟨S_, .f32⟩
  | .hbm, ⟨22, _⟩ => ⟨S320000, .f32⟩
  | .hbm, ⟨23, _⟩ => ⟨S_, .f32⟩
  | .hbm, ⟨24, _⟩ => ⟨S10000, .f32⟩
  | .hbm, ⟨25, _⟩ => ⟨S320000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S512x256, .f32⟩
  | .hbm, ⟨35, _⟩ => ⟨S256x256, .f32⟩
  | .hbm, ⟨36, _⟩ => ⟨S256x256, .f32⟩
  | .hbm, ⟨37, _⟩ => ⟨S1x256, .f32⟩
  | .hbm, ⟨38, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S1000x1, .f32⟩
  | .local _ .vmem, ⟨3, _⟩ => ⟨S1000x1, .f32⟩
  | .local _ .vmem, ⟨4, _⟩ => ⟨S1000x256, .f32⟩
  | .local _ .vmem, ⟨5, _⟩ => ⟨S1000x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S1000x256, .f32⟩
  | .local _ .vmem, ⟨10, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S_S10000 : S_.BroadcastsInDim S10000 (![] : Fin 0 → Fin S10000.rank)
  shapeCasts_S10000_S10000x1 : S10000.ShapeCasts S10000x1
  transposes_S256x512_S512x256_1_0 : S256x512.Transposes [1, 0] S512x256
  slices_S512x256_S256x256_0_0 : S512x256.Slices ![0, 0] S256x256
  slices_S512x256_S256x256_256_0 : S512x256.Slices ![256, 0] S256x256
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S10000x1.size a
  hwx0_1 : ∀ i : grid0.Coords, EltTy.bits .f32 = 32 ∨ (Rect.block (s := S10000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S10000x256.size a
  hwx0_6 : ∀ i : grid0.Coords, EltTy.bits .f32 = 32 ∨ (Rect.block (s := S10000x256) S1000x256.size (cc0_transform_6 i) (hinb0_6 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v11) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x256 : Shape := ⟨2, ![10000, 256]⟩
abbrev S320000x1 : Shape := ⟨2, ![320000, 1]⟩
abbrev S256x512 : Shape := ⟨2, ![256, 512]⟩
abbrev S256 : Shape := ⟨1, ![256]⟩
abbrev S320000 : Shape := ⟨1, ![320000]⟩
abbrev S_ : Shape := ⟨0, ![]⟩
abbrev S320000x256 : Shape := ⟨2, ![320000, 256]⟩
abbrev S10000 : Shape := ⟨1, ![10000]⟩
abbrev S10000x1 : Shape := ⟨2, ![10000, 1]⟩
abbrev S10000x512 : Shape := ⟨2, ![10000, 512]⟩
abbrev S512x256 : Shape := ⟨2, ![512, 256]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x1, .f32⟩
  | .hbm, ⟨2, _⟩ => ⟨S256x512, .f32⟩
  | .hbm, ⟨3, _⟩ => ⟨S256, .f32⟩
  | .hbm, ⟨4, _⟩ => ⟨S320000, .i32⟩
  | .hbm, ⟨5, _⟩ => ⟨S320000, .i32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x256, .f32⟩
  | .hbm, ⟨15, _⟩ => ⟨S320000x256, .f32⟩
  | .hbm, ⟨16, _⟩ => ⟨S320000x256, .f32⟩
  | .hbm, ⟨17, _⟩ => ⟨S_, .f32⟩
  | .hbm, ⟨18, _⟩ => ⟨S10000x256, .f32⟩
  | .hbm, ⟨19, _⟩ => ⟨S320000x1, .i32⟩
  | .hbm, ⟨20, _⟩ => ⟨S10000x256, .f32⟩
  | .hbm, ⟨21, _⟩ => ⟨S_, .f32⟩
  | .hbm, ⟨22, _⟩ => ⟨S320000, .f32⟩
  | .hbm, ⟨23, _⟩ => ⟨S_, .f32⟩
  | .hbm, ⟨24, _⟩ => ⟨S10000, .f32⟩
  | .hbm, ⟨25, _⟩ => ⟨S320000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x256, .f32⟩
  | .hbm, ⟨32, _⟩ => ⟨S10000x256, .f32⟩
  | .hbm, ⟨33, _⟩ => ⟨S10000x512, .f32⟩
  | .hbm, ⟨34, _⟩ => ⟨S512x256, .f32⟩
  | .hbm, ⟨35, _⟩ => ⟨S10000x256, .f32⟩
  | .hbm, ⟨36, _⟩ => ⟨S1x256, .f32⟩
  | .hbm, ⟨37, _⟩ => ⟨S10000x256, .f32⟩
  | .hbm, ⟨38, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.Spec.lean ====
/-
  One entry of the layer's output, and the two laws that join the two programs' spellings of it.

  For node `r` and output feature `c` the layer returns
      Σ_k (a k · d) · wn k  +  Σ_k x k · ws k  +  b
  where `a` is the node's row of summed messages, `d` the reciprocal of its clamped in-degree, `x` its own
  feature row, `wn` and `ws` column `c` of the two halves of the transposed weight and `b` the bias (`entry`);
  `mix` is that entry at every index of a [10000, 256] array, its six operands arrays.

  The other spelling divides the summed messages by the clamped degree, joins the quotient and the feature row
  into one row of length 512 and contracts it with one weight row.  Two facts of the extended reals identify the
  two: a quotient by a divisor that is not zero is the product with the reciprocal (`div_eq_mul_recip`: both are
  `a · m⁻¹`, whatever `a` and `m` are otherwise, infinite included), and a sum over 512 indices is the sum over
  the first 256 plus the sum over the last 256 (`sum_halves`: addition of extended reals is commutative and
  associative).  The divisor is a maximum with one, so it is never zero (`max_one_ne_zero`).  No entry has
  to be finite for any of this.
-/
import Idealize.ShloMosaic.PureOps.Ideal
import Idealize.ShloMosaic.PureOps.IdealRules
import Idealize.ShloMosaic.Lib.ValueIdx

noncomputable section

open scoped BigOperators

namespace Cert.Spec

open Idealize.ShloMosaic Idealize.ShloMosaic.ValueIdx

/-- A rank-2 array of extended reals. -/
abbrev Arr (n0 n1 : Nat) : Type := (⟨2, ![n0, n1]⟩ : Shape).Idx → EReal

/-- The row of an index, as a number below the literal extent. -/
abbrev rowOf {n0 n1 : Nat} (i : (⟨2, ![n0, n1]⟩ : Shape).Idx) : Fin n0 := ⟨(i 0).val, idx2_lt0 i⟩
/-- The column of an index, likewise. -/
abbrev colOf {n0 n1 : Nat} (i : (⟨2, ![n0, n1]⟩ : Shape).Idx) : Fin n1 := ⟨(i 1).val, idx2_lt1 i⟩

/-- One output entry: the scaled message row against one weight column, plus the feature row against the
    other, plus the bias. -/
def entry (a x : Fin 256 → EReal) (d : EReal) (wn ws : Fin 256 → EReal) (b : EReal) : EReal :=
  ((∑ k, (a k * d) * wn k) + ∑ k, x k * ws k) + b

/-- The whole output: `entry` at row `r`, column `c`, of the message sums `A`, the reciprocal degrees `D` (one
    column), the features `X`, the two weight halves `Wn`, `Ws` (contraction index first) and the bias row `B`. -/
def mix (A : Arr 10000 256) (D : Arr 10000 1) (X : Arr 10000 256) (Wn Ws : Arr 256 256) (B : Arr 1 256) : Arr 10000 256 :=
  fun i => entry (fun k => A (ix2 (rowOf i) k)) (fun k => X (ix2 (rowOf i) k)) (D (ix2 (rowOf i) 0))
    (fun k => Wn (ix2 k (colOf i))) (fun k => Ws (ix2 k (colOf i))) (B (ix2 0 (colOf i)))

/-- `mix` at row `r`, column `c`. -/
theorem mix_apply (A : Arr 10000 256) (D : Arr 10000 1) (X : Arr 10000 256) (Wn Ws : Arr 256 256) (B : Arr 1 256)
    (r : Fin 10000) (c : Fin 256) :
    mix A D X Wn Ws B (ix2 r c) = entry (fun k => A (ix2 r k)) (fun k => X (ix2 r k)) (D (ix2 r 0))
      (fun k => Wn (ix2 k c)) (fun k => Ws (ix2 k c)) (B (ix2 0 c)) := rfl

/-- The single-precision pattern of 1.0 denotes the number one. -/
theorem one_f32 : Ideal.ofBits .f32 0x3F800000#32 = 1 := IdealRules.sign_bit.ideal_onePat .f32

/-- Off a zero divisor the quotient is the product with the reciprocal: both sides are `a · m⁻¹`. -/
theorem div_eq_mul_recip (a : EReal) {m : EReal} (hm : m ≠ 0) : Ideal.div a m = a * Ideal.div 1 m := by
  rw [Ideal.div, if_neg hm, Ideal.div, if_neg hm, one_mul]

/-- A maximum with one is at least one, so it is not zero. -/
theorem max_one_ne_zero (x : EReal) : max x 1 ≠ 0 :=
  (lt_of_lt_of_le zero_lt_one (le_max_right x 1)).ne'

/-- A sum over 512 indices is the sum over the first 256 plus the sum over the last 256. -/
theorem sum_halves (f : Fin 512 → EReal) :
    ∑ k, f k = (∑ k : Fin 256, f ⟨k.val, by have := k.isLt; omega⟩) + ∑ k : Fin 256, f ⟨256 + k.val, by have := k.isLt; omega⟩ :=
  Fin.sum_univ_add (a := 256) (b := 256) f

end Cert.Spec

end
-- ==== Proof.Payload.lean ====
/-
  What the kernel body stores, read at one entry of the block.

  The body loads a [1000, 256] block of summed messages, the block's [1000, 1] column of reciprocal degrees, the
  [1000, 256] block of features, the two [256, 256] weight halves and the [1, 256] bias row, and stores
      (messages · degree column) × first half  +  features × second half  +  bias row.
  At row `p`, column `q` of the block that is `Spec.entry` of row `p` of the messages and of the features, entry
  `p` of the degree column, column `q` of each weight half and entry `q` of the bias: a matrix product into a
  zero accumulator is the plain sum over the contracted index, a change of float format is the identity on
  extended reals, a column broadcast reads its row's one entry and a row broadcast its column's.
-/
import proofs.«142675_j70858370449689_2_alg».proof.Proof.Gen.KernelIdeal.Skeleton
import proofs.«142675_j70858370449689_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The degree column broadcast along the rows' 256 entries reads, at row `p`, the column's entry `p`. -/
theorem column_apply (d : FVec Ideal S1000x1 .f32) (p : Fin 1000) (k : Fin 256) :
    broadcastTo S1000x256 d broadcasts_S1000x1_S1000x256 (ix2 p k) = d (ix2 p 0) :=
  broadcastTo_apply d broadcasts_S1000x1_S1000x256 (ix2 p k) (ix2 p 0) (fun a => match a with
    | ⟨0, _⟩ => by show p.val = if (1000 : Nat) = 1 then 0 else p.val; rw [if_neg (by decide)]
    | ⟨1, _⟩ => by show 0 = if (1 : Nat) = 1 then 0 else k.val; rw [if_pos rfl])

/-- The bias row broadcast down the 1000 rows reads, at column `q`, the row's entry `q`. -/
theorem row_apply (b : FVec Ideal S1x256 .f32) (p : Fin 1000) (q : Fin 256) :
    broadcastTo S1000x256 b broadcasts_S1x256_S1000x256 (ix2 p q) = b (ix2 0 q) :=
  broadcastTo_apply b broadcasts_S1x256_S1000x256 (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The product's left operand is read at the output's row `j 0` … -/
theorem lhs_row (j : S1000x256.Idx) (κ : dot_S1000x256_S256x256_S1000x256_1_0_0_1_n_n.contr.Idx) :
    (dot_S1000x256_S256x256_S1000x256_1_0_0_1_n_n.lhsIdx j κ 0).val = (j 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
/-- … and at the contracted position; -/
theorem lhs_contr (j : S1000x256.Idx) (κ : dot_S1000x256_S256x256_S1000x256_1_0_0_1_n_n.contr.Idx) :
    (dot_S1000x256_S256x256_S1000x256_1_0_0_1_n_n.lhsIdx j κ 1).val = (κ ⟨0, by decide⟩).val :=
  dot_S1000x256_S256x256_S1000x256_1_0_0_1_n_n.lhsIdx_val_of_single rfl j κ
/-- the right operand at the contracted position … -/
theorem rhs_contr (j : S1000x256.Idx) (κ : dot_S1000x256_S256x256_S1000x256_1_0_0_1_n_n.contr.Idx) :
    (dot_S1000x256_S256x256_S1000x256_1_0_0_1_n_n.rhsIdx j κ 0).val = (κ ⟨0, by decide⟩).val :=
  dot_S1000x256_S256x256_S1000x256_1_0_0_1_n_n.rhsIdx_val_of_single rfl j κ
/-- … and at the output's column `j 1`. -/
theorem rhs_col (j : S1000x256.Idx) (κ : dot_S1000x256_S256x256_S1000x256_1_0_0_1_n_n.contr.Idx) :
    (dot_S1000x256_S256x256_S1000x256_1_0_0_1_n_n.rhsIdx j κ 1).val = (j 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- A [1000, 256] × [256, 256] product into the zero accumulator, at row `p`, column `q`: the sum over the
    contracted index `k` of the left operand at (p, k) times the right at (k, q). -/
theorem product_apply (l : FVec Ideal S1000x256 .bf16) (r : FVec Ideal S256x256 .bf16) (p : Fin 1000) (q : Fin 256) :
    matmul dot_S1000x256_S256x256_S1000x256_1_0_0_1_n_n none l r (constant S1000x256 .f32 0x00000000#32) (ix2 p q)
      = ∑ k : Fin 256, l (ix2 p k) * r (ix2 k q) := by
  simp only [matmul]
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k := funext fun a => Fin.ext (by
    match a with
    | ⟨0, _⟩ => exact lhs_row _ _
    | ⟨1, _⟩ => exact (lhs_contr _ _).trans hk)
  have er : dot_S1000x256_S256x256_S1000x256_1_0_0_1_n_n.rhsIdx (ix2 p q) ((contrEquiv1 dot_S1000x256_S256x256_S1000x256_1_0_0_1_n_n 256 rfl rfl).symm k) = ix2 k q := funext fun a => Fin.ext (by
    match a with
    | ⟨0, _⟩ => exact (rhs_contr _ _).trans hk
    | ⟨1, _⟩ => exact rhs_col _ _)
  rw [el, er]

/-- THE STORED BLOCK AT (p, q): `Spec.entry` of the loaded blocks' row `p` and column `q`. -/
theorem stored_apply (a : Vec Ideal S1000x256 .f32) (d : Vec Ideal S1000x1 .f32) (x : Vec Ideal S1000x256 .f32)
    (wn ws : Vec Ideal S256x256 .f32) (b : Vec Ideal S1x256 .f32) (p : Fin 1000) (q : Fin 256) :
    k0_pay1 (F := Ideal) a d x wn ws b (ix2 p q)
      = Cert.Spec.entry (fun k => a (ix2 p k)) (fun k => x (ix2 p k)) (d (ix2 p 0))
          (fun k => wn (ix2 k q)) (fun k => ws (ix2 k q)) (b (ix2 0 q)) := by
  unfold k0_pay1
  simp only [shapeCast_self]
  unfold Cert.Spec.entry
  refine congrArg₂ (· + ·) (congrArg₂ (· + ·) ?_ ?_) (row_apply _ p q)
  · refine (product_apply _ _ p q).trans (Finset.sum_congr rfl fun k _ => ?_)
    exact congrArg (fun z => (a (ix2 p k) * z) * wn (ix2 k q)) (column_apply _ p k)
  · exact product_apply _ _ p q

end Cert.KernelIdeal.Payload

end
-- ==== Proof.KernelValue.lean ====
/-
  The kernel's result array as one function of the arrays its call is handed.

  The grid has ten points; point `t` works on rows 1000·t … 1000·t + 999: its blocks of the summed messages, of
  the reciprocal degrees and of the features are those rows of their arrays, the two weight halves and the bias
  row are whole at every point, and what it writes back is those rows of the result.  So row `r` of the result is
  written by point `r / 1000`, every row by exactly that one, and the entry it holds at column `c` is
  `Spec.entry` of row `r` of the messages and features, entry `r` of the degrees, column `c` of each weight half
  and entry `c` of the bias — `Spec.mix` of the six arrays (`result`).
-/
import proofs.«142675_j70858370449689_2_alg».proof.Proof.Gen.KernelIdeal.Value
import proofs.«142675_j70858370449689_2_alg».proof.Proof.Payload
import proofs.«142675_j70858370449689_2_alg».proof.Proof.Spec
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the ten grid points: the three row-blocked inputs and the output sit at block
    (t, 0), the weights and the bias at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The result array: `Spec.mix` of the six arrays the call is handed, as the region finds them. -/
def result (c : Dev nD) : S10000x256.Idx → EReal :=
  Cert.Spec.mix (V m c main_v11 : S10000x256.Idx → EReal) (V m c main_v20 : S10000x1.Idx → EReal)
    (V m c main_arg0 : S10000x256.Idx → EReal) (V m c main_v22 : S256x256.Idx → EReal)
    (V m c main_v23 : S256x256.Idx → EReal) (V m c main_v24 : S1x256.Idx → EReal)

/-- Row `1000·t + p` of the array, as an index. -/
abbrev rowAt (t : Fin cfg0.N) (p : Fin 1000) : Fin 10000 :=
  ⟨1000 * t.val + p.val, by have ht : t.val < 10 := t.isLt.trans_eq N_0; have := p.isLt; omega⟩

/-- The message block at point `t` is rows 1000·t … of the message array. -/
theorem messages_block (c : Dev nD) (t : Fin cfg0.N) (p : Fin 1000) (k : Fin 256) :
    (iblk m c 0 t : S1000x256.Idx → EReal) (ix2 p k) = (V m c main_v11 : S10000x256.Idx → EReal) (ix2 (rowAt t p) k) := by
  obtain ⟨e0, e1, -⟩ := block_index t
  show (V m c main_v11 : S10000x256.Idx → EReal) (((cfg0.win 0).blk t).view.emb (ix2 p k)) = _
  refine congrArg (V m c main_v11 : S10000x256.Idx → EReal) (funext fun a => Fin.ext ?_)
  match a with
  | ⟨0, _⟩ => show win0_0.index t (0 : Fin 2) * 1000 + 1 * p.val = 1000 * t.val + p.val; rw [e0]; omega
  | ⟨1, _⟩ => show win0_0.index t (1 : Fin 2) * 256 + 1 * k.val = k.val; rw [e1]; omega

/-- The degree block at point `t` is rows 1000·t … of the degree column. -/
theorem degrees_block (c : Dev nD) (t : Fin cfg0.N) (p : Fin 1000) :
    (iblk m c 1 t : S1000x1.Idx → EReal) (ix2 p 0) = (V m c main_v20 : S10000x1.Idx → EReal) (ix2 (rowAt t p) 0) := by
  obtain ⟨-, -, e0, e1, -⟩ := block_index t
  show (V m c main_v20 : S10000x1.Idx → EReal) (((cfg0.win 1).blk t).view.emb (ix2 p 0)) = _
  refine congrArg (V m c main_v20 : S10000x1.Idx → EReal) (funext fun a => Fin.ext ?_)
  match a with
  | ⟨0, _⟩ => show win0_1.index t (0 : Fin 2) * 1000 + 1 * p.val = 1000 * t.val + p.val; rw [e0]; omega
  | ⟨1, _⟩ => show win0_1.index t (1 : Fin 2) * 1 + 1 * 0 = 0; rw [e1]

/-- The feature block at point `t` is rows 1000·t … of the feature array. -/
theorem features_block (c : Dev nD) (t : Fin cfg0.N) (p : Fin 1000) (k : Fin 256) :
    (iblk m c 2 t : S1000x256.Idx → EReal) (ix2 p k) = (V m c main_arg0 : S10000x256.Idx → EReal) (ix2 (rowAt t p) k) := by
  obtain ⟨-, -, -, -, e0, e1, -⟩ := block_index t
  show (V m c main_arg0 : S10000x256.Idx → EReal) (((cfg0.win 2).blk t).view.emb (ix2 p k)) = _
  refine congrArg (V m c main_arg0 : S10000x256.Idx → EReal) (funext fun a => Fin.ext ?_)
  match a with
  | ⟨0, _⟩ => show win0_2.index t (0 : Fin 2) * 1000 + 1 * p.val = 1000 * t.val + p.val; rw [e0]; omega
  | ⟨1, _⟩ => show win0_2.index t (1 : Fin 2) * 256 + 1 * k.val = k.val; rw [e1]; omega

/-- The first weight half is whole at every point. -/
theorem neigh_block (c : Dev nD) (t : Fin cfg0.N) (k q : Fin 256) :
    (iblk m c 3 t : S256x256.Idx → EReal) (ix2 k q) = (V m c main_v22 : S256x256.Idx → EReal) (ix2 k q) := by
  obtain ⟨-, -, -, -, -, -, e0, e1, -⟩ := block_index t
  show (V m c main_v22 : S256x256.Idx → EReal) (((cfg0.win 3).blk t).view.emb (ix2 k q)) = _
  refine congrArg (V m c main_v22 : S256x256.Idx → EReal) (funext fun a => Fin.ext ?_)
  match a with
  | ⟨0, _⟩ => show win0_3.index t (0 : Fin 2) * 256 + 1 * k.val = k.val; rw [e0]; omega
  | ⟨1, _⟩ => show win0_3.index t (1 : Fin 2) * 256 + 1 * q.val = q.val; rw [e1]; omega

/-- The second weight half is whole at every point. -/
theorem self_block (c : Dev nD) (t : Fin cfg0.N) (k q : Fin 256) :
    (iblk m c 4 t : S256x256.Idx → EReal) (ix2 k q) = (V m c main_v23 : S256x256.Idx → EReal) (ix2 k q) := by
  obtain ⟨-, -, -, -, -, -, -, -, e0, e1, -⟩ := block_index t
  show (V m c main_v23 : S256x256.Idx → EReal) (((cfg0.win 4).blk t).view.emb (ix2 k q)) = _
  refine congrArg (V m c main_v23 : S256x256.Idx → EReal) (funext fun a => Fin.ext ?_)
  match a with
  | ⟨0, _⟩ => show win0_4.index t (0 : Fin 2) * 256 + 1 * k.val = k.val; rw [e0]; omega
  | ⟨1, _⟩ => show win0_4.index t (1 : Fin 2) * 256 + 1 * q.val = q.val; rw [e1]; omega

/-- The bias row is whole at every point. -/
theorem bias_block (c : Dev nD) (t : Fin cfg0.N) (q : Fin 256) :
    (iblk m c 5 t : S1x256.Idx → EReal) (ix2 0 q) = (V m c main_v24 : S1x256.Idx → EReal) (ix2 0 q) := by
  obtain ⟨-, -, -, -, -, -, -, -, -, -, e0, e1, -⟩ := block_index t
  show (V m c main_v24 : S1x256.Idx → EReal) (((cfg0.win 5).blk t).view.emb (ix2 0 q)) = _
  refine congrArg (V m c main_v24 : S1x256.Idx → EReal) (funext fun a => Fin.ext ?_)
  match a with
  | ⟨0, _⟩ => show win0_5.index t (0 : Fin 2) * 1 + 1 * 0 = 0; rw [e0]
  | ⟨1, _⟩ => show win0_5.index t (1 : Fin 2) * 256 + 1 * q.val = q.val; rw [e1]; omega

/-- WHAT POINT `t` WRITES BACK is rows 1000·t … 1000·t + 999 of `result`. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero origin]
  simp only [View.ld_unit_zero (S := S1000x256) origin, View.ld_unit_zero (S := S1000x1) origin,
    View.ld_unit_zero (S := S256x256) origin, View.ld_unit_zero (S := S1x256) origin]
  obtain ⟨-, -, -, -, -, -, -, -, -, -, -, -, e0, e1⟩ := block_index t
  funext j
  obtain ⟨p, q, rfl⟩ : ∃ (p : Fin 1000) (q : Fin 256), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
    = result m c (((cfg0.win 6).blk t).view.emb (ix2 p q))
  have hi : ((cfg0.win 6).blk t).view.emb (ix2 p q) = (ix2 (rowAt t p) q : S10000x256.Idx) := funext fun a => Fin.ext (by
    match a with
    | ⟨0, _⟩ => show win0_6.index t (0 : Fin 2) * 1000 + 1 * p.val = 1000 * t.val + p.val; rw [e0]; omega
    | ⟨1, _⟩ => show win0_6.index t (1 : Fin 2) * 256 + 1 * q.val = q.val; rw [e1]; omega)
  rw [hi]
  refine (Cert.KernelIdeal.Payload.stored_apply (iblk m c 0 t) (iblk m c 1 t) (iblk m c 2 t) (iblk m c 3 t) (iblk m c 4 t) (iblk m c 5 t) p q).trans ?_
  show _ = Cert.Spec.entry _ _ _ _ _ _
  simp only [messages_block, degrees_block, features_block, neigh_block, self_block, bias_block]

/-- An index of the array is in point `t`'s block iff each coordinate is in the block's range on its axis. -/
theorem mem_block (t : Fin cfg0.N) (i : S10000x256.Idx) :
    i ∈ ((cfg0.win 6).blk t).view.set ↔ ∀ a : Fin 2, win0_6.index t a * S1000x256.size a ≤ (i a).val ∧ (i a).val < win0_6.index t a * S1000x256.size a + S1000x256.size a := by
  show i ∈ ((View.whole main_v25).slice (win0_6.rect t)).set ↔ _
  rw [View.set_slice_whole, Rect.mem_set_unit]
  exact Iff.rfl

/-- Row `r` is in the block of point `r / 1000`: the ten blocks cover the array. -/
theorem cover (i : S10000x256.Idx) : ∃ t : Fin cfg0.N, (cfg0.win 6).flush t = true ∧ i ∈ ((cfg0.win 6).blk t).view.set := by
  have hi0 : (i 0).val < 10000 := (i 0).isLt
  have hi1 : (i 1).val < 256 := (i 1).isLt
  refine ⟨⟨(i 0).val / 1000, by rw [show cfg0.N = 10 from N_0]; omega⟩, flush0_6 _, ?_⟩
  rw [mem_block]
  obtain ⟨-, -, -, -, -, -, -, -, -, -, -, -, e0, e1⟩ := block_index ⟨(i 0).val / 1000, by rw [show cfg0.N = 10 from N_0]; omega⟩
  intro a
  match a with
  | ⟨0, _⟩ =>
    show win0_6.index _ (0 : Fin 2) * 1000 ≤ (i 0).val ∧ (i 0).val < win0_6.index _ (0 : Fin 2) * 1000 + 1000
    rw [e0]; show (i 0).val / 1000 * 1000 ≤ (i 0).val ∧ (i 0).val < (i 0).val / 1000 * 1000 + 1000; omega
  | ⟨1, _⟩ =>
    show win0_6.index _ (1 : Fin 2) * 256 ≤ (i 1).val ∧ (i 1).val < win0_6.index _ (1 : Fin 2) * 256 + 256
    rw [e1]; omega

/-- THE ARRAY after the run is `result`. -/
theorem final (c : Dev nD) : (dats m 0 c).arrAt 6 cfg0.N = result m c :=
  (dats m 0 c).arrAt_eq_of_cover 6 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Whole

end
-- ==== Proof.HostGlue.lean ====
/-
  The six arrays the kernel's call is handed, read against the reference's own arrays.

  Before its call the kernel's program computes, with the same operations as the reference, the summed messages
  and the clamped in-degrees; it then takes the reciprocal of the clamped degrees and lays it out as a column,
  transposes the [256, 512] weight and cuts the transpose into its first and last 256 rows, and lays the bias
  out as a row.  Entry by entry:
    messages            the reference's summed messages, the same term;
    degree column (r,0) one over the reference's clamped degree of node r;
    first half (k, c)   the weight at (c, k);      second half (k, c)   the weight at (c, 256 + k);
    bias row (0, c)     the bias at c;
  and the features are the argument itself.
-/
import proofs.«142675_j70858370449689_2_alg».proof.Proof.Gen.KernelIdeal.Frame
import proofs.«142675_j70858370449689_2_alg».proof.Proof.Gen.ReferenceIdeal.Read
import proofs.«142675_j70858370449689_2_alg».proof.Proof.Spec
import Idealize.ShloMosaic.Lib.Pipeline.Value
import Idealize.ShloMosaic.Lib.ValueIdx
import Idealize.ShloMosaic.Lib.StableHlo.Run

noncomputable section

namespace Cert.KernelIdeal.Glue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The summed messages the call is handed are the reference's, as one term of the arguments. -/
theorem messages_eq (c : Dev nD) :
    (V m c main_v11 : S10000x256.Idx → EReal)
      = Cert.ReferenceIdeal.Read.val_main_v11 (F := Ideal) (m ((c : Thread nD τ).loc main_arg0)) (m ((c : Thread nD τ).loc main_arg1))
          (m ((c : Thread nD τ).loc main_arg4)) (m ((c : Thread nD τ).loc main_arg5)) := by
  dsimp only [Gen.V, Gen.hostOps0]
  after_results_simp <;> rfl

/-- The degree column: the reciprocal of the reference's clamped degrees, reshaped [10000] → [10000, 1]. -/
theorem degrees_eq (c : Dev nD) :
    (V m c main_v20 : S10000x1.Idx → EReal)
      = shapeCast S10000x1 (Host.divf (F := Ideal) (broadcastInDim S10000 ![] bcast_S_S10000 (constant (F := Ideal) S_ .f32 0x3F800000#32))
          (Cert.ReferenceIdeal.Read.val_main_v17 (F := Ideal) (m ((c : Thread nD τ).loc main_arg5)))) shapeCasts_S10000_S10000x1 := by
  dsimp only [Gen.V, Gen.hostOps0]
  after_results <;> rfl

/-- A host quotient of two arrays, at an index, is the quotient of the entries. -/
theorem quotient_apply {s : Shape} (a b : FVec Ideal s .f32) (i : s.Idx) : Host.divf a b i = Ideal.div (a i) (b i) := rfl

/-- The splat of 1.0 reads the number one at every node. -/
theorem ones_apply (r : Fin 10000) :
    broadcastInDim S10000 ![] bcast_S_S10000 (constant (F := Ideal) S_ .f32 0x3F800000#32) (ix1 r : S10000.Idx) = (1 : EReal) := by
  rw [broadcastInDim_apply _ bcast_S_S10000 _ (ix1 r : S10000.Idx) ix0 (fun a => a.elim0)]
  exact Cert.Spec.one_f32

/-- Its entry for node `r` is one over the clamped degree of `r`. -/
theorem degrees_apply (c : Dev nD) (r : Fin 10000) :
    (V m c main_v20 : S10000x1.Idx → EReal) (ix2 r 0)
      = Ideal.div 1 (Cert.ReferenceIdeal.Read.val_main_v17 (F := Ideal) (m ((c : Thread nD τ).loc main_arg5)) (ix1 r)) := by
  rw [degrees_eq]
  refine (shapeCast_apply _ shapeCasts_S10000_S10000x1 (ix2 r 0 : S10000x1.Idx) (ix1 r : S10000.Idx) ?_).trans ?_
  · rw [Shape.rowMajor_val_one, Shape.rowMajor_val_two]
    show r.val = r.val * 1 + 0
    omega
  · refine (quotient_apply _ _ _).trans ?_
    rw [ones_apply]

/-- The two weight halves: rows 0 … 255 and 256 … 511 of the transposed weight. -/
theorem neigh_eq (c : Dev nD) :
    (V m c main_v22 : S256x256.Idx → EReal)
      = extractStridedSlice S256x256 ![0, 0] (transpose S512x256 [1, 0] (m ((c : Thread nD τ).loc main_arg2) : S256x512.Idx → EReal) transposes_S256x512_S512x256_1_0) slices_S512x256_S256x256_0_0 := by
  dsimp only [Gen.V, Gen.hostOps0]
  after_results <;> rfl
theorem self_eq (c : Dev nD) :
    (V m c main_v23 : S256x256.Idx → EReal)
      = extractStridedSlice S256x256 ![256, 0] (transpose S512x256 [1, 0] (m ((c : Thread nD τ).loc main_arg2) : S256x512.Idx → EReal) transposes_S256x512_S512x256_1_0) slices_S512x256_S256x256_256_0 := by
  dsimp only [Gen.V, Gen.hostOps0]
  after_results <;> rfl

/-- The first half at (k, c) is the weight at (c, k) … -/
theorem neigh_apply (c : Dev nD) (k q : Fin 256) :
    (V m c main_v22 : S256x256.Idx → EReal) (ix2 k q)
      = (m ((c : Thread nD τ).loc main_arg2) : S256x512.Idx → EReal) (ix2 q (⟨k.val, by have := k.isLt; omega⟩ : Fin 512)) := by
  rw [neigh_eq]
  refine (extractStridedSlice_apply ![0, 0] _ slices_S512x256_S256x256_0_0 (ix2 k q : S256x256.Idx)
    (ix2 (⟨k.val, by have := k.isLt; omega⟩ : Fin 512) q : S512x256.Idx) (fun a => match a with
      | ⟨0, _⟩ => by show k.val = 0 + k.val; omega
      | ⟨1, _⟩ => by show q.val = 0 + q.val; omega)).trans ?_
  exact transpose_apply [1, 0] _ transposes_S256x512_S512x256_1_0 _ _ (fun b => match b with
    | ⟨0, _⟩ => rfl
    | ⟨1, _⟩ => rfl)

/-- … and the second half at (k, c) the weight at (c, 256 + k). -/
theorem self_apply (c : Dev nD) (k q : Fin 256) :
    (V m c main_v23 : S256x256.Idx → EReal) (ix2 k q)
      = (m ((c : Thread nD τ).loc main_arg2) : S256x512.Idx → EReal) (ix2 q (⟨256 + k.val, by have := k.isLt; omega⟩ : Fin 512)) := by
  rw [self_eq]
  refine (extractStridedSlice_apply ![256, 0] _ slices_S512x256_S256x256_256_0 (ix2 k q : S256x256.Idx)
    (ix2 (⟨256 + k.val, by have := k.isLt; omega⟩ : Fin 512) q : S512x256.Idx) (fun a => match a with
      | ⟨0, _⟩ => by show 256 + k.val = 256 + k.val; rfl
      | ⟨1, _⟩ => by show q.val = 0 + q.val; omega)).trans ?_
  exact transpose_apply [1, 0] _ transposes_S256x512_S512x256_1_0 _ _ (fun b => match b with
    | ⟨0, _⟩ => rfl
    | ⟨1, _⟩ => rfl)

/-- The bias row: the bias reshaped [256] → [1, 256]. -/
theorem bias_eq (c : Dev nD) :
    (V m c main_v24 : S1x256.Idx → EReal)
      = shapeCast S1x256 (m ((c : Thread nD τ).loc main_arg3) : S256.Idx → EReal) shapeCasts_S256_S1x256 := by
  dsimp only [Gen.V, Gen.hostOps0]
  after_results <;> rfl

/-- Its entry at column `q` is the bias at `q`. -/
theorem bias_apply (c : Dev nD) (q : Fin 256) :
    (V m c main_v24 : S1x256.Idx → EReal) (ix2 0 q) = (m ((c : Thread nD τ).loc main_arg3) : S256.Idx → EReal) (ix1 q) := by
  rw [bias_eq]
  refine shapeCast_apply _ shapeCasts_S256_S1x256 (ix2 0 q : S1x256.Idx) (ix1 q : S256.Idx) ?_
  rw [Shape.rowMajor_val_one, Shape.rowMajor_val_two]
  show q.val = 0 * 256 + q.val
  omega

end Cert.KernelIdeal.Glue

end
-- ==== Proof.RefValue.lean ====
/-
  The reference's result as the same function `Spec.mix`.

  The reference divides the summed messages by the clamped in-degree of their node, joins each quotient row with
  the node's feature row into a row of length 512, contracts it with the matching row of the [256, 512] weight
  and adds the bias.  Entry (r, c) of its result is therefore
      Σ_{k < 512} joined(r, k) · W(c, k)  +  b(c).
  The sum over 512 splits at 256 (`Spec.sum_halves`); on the first half the joined row is the quotient
  `agg(r, k) / M(r)`, which is `agg(r, k) · (1 / M(r))` because the clamped degree `M(r) = max(deg r, 1)` is not
  zero (`Spec.div_eq_mul_recip`, `clamp_ne_zero`); on the second half it is the feature row.  With the reciprocal
  degrees `D`, the two weight halves `Wn`, `Ws` and the bias row `B` related to the reference's own arrays entry
  by entry (the four hypotheses of `result_eq`), that is `Spec.mix`.
-/
import proofs.«142675_j70858370449689_2_alg».proof.Proof.Gen.ReferenceIdeal.Read
import proofs.«142675_j70858370449689_2_alg».proof.Proof.Spec
import Idealize.ShloMosaic.Lib.Pipeline.Value
import Idealize.ShloMosaic.Lib.ValueIdx

noncomputable section

open scoped BigOperators

namespace Cert.ReferenceIdeal.Whole

open Cert.ReferenceIdeal Cert.ReferenceIdeal.Gen Cert.ReferenceIdeal.Read Idealize.ShloMosaic Idealize.ShloMosaic.ValueIdx

variable (x0 : S10000x256.Idx → EReal) (x1 : S320000x1.Idx → EReal) (x2 : S256x512.Idx → EReal) (x3 : S256.Idx → EReal)
  (x4 x5 : S320000.Idx → BitVec 32)

/-- The clamped in-degree of a node is a maximum with one: never zero. -/
theorem clamp_ne_zero (r : Fin 10000) : val_main_v17 (F := Ideal) x5 (ix1 r) ≠ 0 := by
  rw [val_main_v17_apply, val_main_v16_apply, val_main_cst_3_apply]
  show max _ (Ideal.ofBits .f32 0x3F800000#32) ≠ 0
  rw [Cert.Spec.one_f32]
  exact Cert.Spec.max_one_ne_zero _

/-- The mean message at (r, k): the summed message there over the node's clamped degree. -/
theorem mean_apply (r : Fin 10000) (k : Fin 256) :
    val_main_v20 (F := Ideal) x0 x1 x4 x5 (ix2 r k)
      = Ideal.div (val_main_v11 (F := Ideal) x0 x1 x4 x5 (ix2 r k)) (val_main_v17 (F := Ideal) x5 (ix1 r)) := by
  rw [val_main_v20_apply, val_main_v19_apply, val_main_v18_apply]
  have e : idx_main_v18 (idx_main_v19 (ix2 r k : S10000x256.Idx)) = ix1 r := funext fun a => Fin.ext (by
    match a with | ⟨0, _⟩ => rfl)
  rw [e]
  rfl

/-- The joined row's first 256 entries are the mean messages … -/
theorem joined_left (r : Fin 10000) (c k : Fin 256) :
    val_main_v21 (F := Ideal) x0 x1 x4 x5 (lidx_main_v23 (ix2 r c) ⟨k.val, by have := k.isLt; omega⟩)
      = val_main_v20 (F := Ideal) x0 x1 x4 x5 (ix2 r k) := by
  unfold val_main_v21
  exact concatenate_pair_apply_left 1 _ _ concatenates_S10000x256_S10000x256_S10000x512_d1 _ rfl (ix2 r k)
    (fun b => match b with | ⟨0, _⟩ => rfl | ⟨1, _⟩ => rfl)

/-- … and its last 256 the node's features. -/
theorem joined_right (r : Fin 10000) (c k : Fin 256) :
    val_main_v21 (F := Ideal) x0 x1 x4 x5 (lidx_main_v23 (ix2 r c) ⟨256 + k.val, by have := k.isLt; omega⟩)
      = x0 (ix2 r k) := by
  unfold val_main_v21
  exact concatenate_pair_apply_right 1 _ _ concatenates_S10000x256_S10000x256_S10000x512_d1 _ rfl rfl (ix2 r k)
    (fun b hb => match b, hb with | ⟨0, _⟩, _ => rfl | ⟨1, _⟩, hb => absurd (Fin.ext rfl) hb)
    (by show k.val + 256 = 256 + k.val; omega)

/-- The transposed weight at (k, c) is the weight at (c, k). -/
theorem weight_apply (r : Fin 10000) (c : Fin 256) (k : Fin 512) :
    val_main_v22 (F := Ideal) x2 (ridx_main_v23 (ix2 r c) k) = x2 (ix2 c k) := by
  rw [val_main_v22_apply]
  exact congrArg x2 (funext fun a => Fin.ext (by match a with | ⟨0, _⟩ => rfl | ⟨1, _⟩ => rfl))

/-- The bias broadcast down the rows reads its entry `c` at column `c`. -/
theorem bias_apply (r : Fin 10000) (c : Fin 256) : val_main_v25 (F := Ideal) x3 (ix2 r c) = x3 (ix1 c) := by
  rw [val_main_v25_apply, val_main_v24_apply]
  exact congrArg x3 (funext fun a => Fin.ext (by match a with | ⟨0, _⟩ => rfl))

/-- THE REFERENCE'S RESULT is `Spec.mix` of its summed messages, of reciprocal degrees `D`, of its features, of
    weight halves `Wn`, `Ws` and of a bias row `B` that read, entry by entry, as the reference's own arrays do. -/
theorem result_eq (D : Cert.Spec.Arr 10000 1) (Wn Ws : Cert.Spec.Arr 256 256) (B : Cert.Spec.Arr 1 256)
    (hD : ∀ r : Fin 10000, D (ix2 r 0) = Ideal.div 1 (val_main_v17 (F := Ideal) x5 (ix1 r)))
    (hWn : ∀ k q : Fin 256, Wn (ix2 k q) = x2 (ix2 q (⟨k.val, by have := k.isLt; omega⟩ : Fin 512)))
    (hWs : ∀ k q : Fin 256, Ws (ix2 k q) = x2 (ix2 q (⟨256 + k.val, by have := k.isLt; omega⟩ : Fin 512)))
    (hB : ∀ q : Fin 256, B (ix2 0 q) = x3 (ix1 q)) :
    val_main_v26 (F := Ideal) x0 x1 x2 x3 x4 x5
      = Cert.Spec.mix (val_main_v11 (F := Ideal) x0 x1 x4 x5) D x0 Wn Ws B := by
  funext i
  obtain ⟨r, c, rfl⟩ : ∃ (r : Fin 10000) (c : Fin 256), i = ix2 r c := ⟨i 0, i 1, eq_ix2 i⟩
  rw [val_main_v26_apply, val_main_v23_apply, bias_apply, Cert.Spec.mix_apply]
  unfold Cert.Spec.entry
  rw [Cert.Spec.sum_halves]
  refine congrArg₂ (· + ·) (congrArg₂ (· + ·) (Finset.sum_congr rfl fun k _ => ?_) (Finset.sum_congr rfl fun k _ => ?_)) (hB c).symm
  · rw [joined_left, mean_apply, weight_apply, Cert.Spec.div_eq_mul_recip _ (clamp_ne_zero x5 r)]
    beta_reduce
    rw [hD, hWn]
  · rw [joined_right, weight_apply]
    beta_reduce
    rw [hWs]

end Cert.ReferenceIdeal.Whole

end
-- ==== Proof.lean ====
/-
  The layer: for every node the mean of its incoming weighted neighbour features, joined with the node's own
  features and sent through one linear map, `concat(agg / max(deg, 1), feat) · Wᵀ + b`.

  The kernel's program computes the summed messages `agg` and the clamped in-degrees exactly as the reference
  does, then hands a fused call the messages, the reciprocals `1 / max(deg, 1)`, the features, the two halves of
  `Wᵀ` and the bias; the call returns `(agg · recip) × Wᵀ[:256] + feat × Wᵀ[256:] + b` ten blocks of rows at a time.
  Over the extended reals the two results are one function (`Cert.Spec.mix`):
    * dividing by the clamped degree is multiplying by its reciprocal, because a maximum with one is never zero;
    * the contraction over the joined row of length 512 is the sum of the contractions over its two halves;
    * a matrix product, on the host or in the call, is the plain sum of products, and a change of float format is
      the identity.
  None of these asks an entry to be finite, so the precondition is never opened.

  The modules: `Spec` (the function and the two laws), `Payload` (what the call's body stores, at an entry),
  `KernelValue` (the call's result array as `Spec.mix` of the arrays it is handed), `HostGlue` (those arrays read
  against the arguments), `RefValue` (the reference's result as `Spec.mix`), and the claims below.
-/
import proofs.«142675_j70858370449689_2_alg».proof.Defs
import proofs.«142675_j70858370449689_2_alg».proof.Proof.Gen.Kernel
import proofs.«142675_j70858370449689_2_alg».proof.Proof.Gen.Kernel.Skeleton
import proofs.«142675_j70858370449689_2_alg».proof.Proof.Gen.Kernel.Launch
import proofs.«142675_j70858370449689_2_alg».proof.Proof.Gen.Kernel.Points
import proofs.«142675_j70858370449689_2_alg».proof.Proof.Gen.Kernel.Frame
import proofs.«142675_j70858370449689_2_alg».proof.Proof.Gen.KernelIdeal
import proofs.«142675_j70858370449689_2_alg».proof.Proof.Gen.KernelIdeal.Skeleton
import proofs.«142675_j70858370449689_2_alg».proof.Proof.Gen.KernelIdeal.Launch
import proofs.«142675_j70858370449689_2_alg».proof.Proof.Gen.KernelIdeal.Points
import proofs.«142675_j70858370449689_2_alg».proof.Proof.Gen.KernelIdeal.Frame
import proofs.«142675_j70858370449689_2_alg».proof.Proof.Gen.ReferenceIdeal
import proofs.«142675_j70858370449689_2_alg».proof.Proof.Gen.Pre_finite_inputs
import proofs.«142675_j70858370449689_2_alg».proof.Proof.Gen.KernelIdeal.Value
import proofs.«142675_j70858370449689_2_alg».proof.Proof.Gen.ReferenceIdeal.Run
import proofs.«142675_j70858370449689_2_alg».proof.Proof.Gen.ReferenceIdeal.Read
import proofs.«142675_j70858370449689_2_alg».proof.Proof.Spec
import proofs.«142675_j70858370449689_2_alg».proof.Proof.KernelValue
import proofs.«142675_j70858370449689_2_alg».proof.Proof.HostGlue
import proofs.«142675_j70858370449689_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments the kernel's result array ends at `Spec.mix` of the arrays
    its call is handed (`KernelValue`), and the reference's at `Spec.mix` of arrays that read the same entry by
    entry (`RefValue.result_eq` over `HostGlue`): equal. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  refine (Cert.ReferenceIdeal.Read.val_main_v26_eq _ _ _ _ _ _).trans ?_
  refine (Cert.ReferenceIdeal.Whole.result_eq _ _ _ _ _ _ _ _ _ _
    (Cert.KernelIdeal.Glue.degrees_apply m c) (Cert.KernelIdeal.Glue.neigh_apply m c)
    (Cert.KernelIdeal.Glue.self_apply m c) (Cert.KernelIdeal.Glue.bias_apply m c)).trans ?_
  show _ = Cert.KernelIdeal.Whole.result m c
  unfold Cert.KernelIdeal.Whole.result
  rw [Cert.KernelIdeal.Glue.messages_eq m c, Cert.KernelIdeal.Gen.V_main_arg0 m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
